-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S2000x128 : Shape := ⟨2, ![2000, 128]⟩
abbrev S200x10000 : Shape := ⟨2, ![200, 10000]⟩
abbrev S200x128 : Shape := ⟨2, ![200, 128]⟩

abbrev nBuf : Space → Nat
  | .hbm => 9
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S200x10000, .f32⟩
  | .local _ .vmem, ⟨9, _⟩ => ⟨S200x10000, .f32⟩
  | .local _ .vmem, ⟨10, _⟩ => ⟨S200x10000, .f32⟩
  | .local _ .vmem, ⟨11, _⟩ => ⟨S200x10000, .f32⟩
  | .local _ .vmem, ⟨12, _⟩ => ⟨S10000x128, .f32⟩
  | .local _ .vmem, ⟨13, _⟩ => ⟨S10000x128, .f32⟩
  | .local _ .vmem, ⟨14, _⟩ => ⟨S200x128, .f32⟩
  | .local _ .vmem, ⟨15, _⟩ => ⟨S200x128, .f32⟩
  | .local _ .vmem, ⟨16, _⟩ => ⟨S200x128, .f32⟩
  | .local _ .vmem, ⟨17, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0_0 : Ref sig .tc := ⟨.hbm, 5, rfl⟩
abbrev main_call0_v0_1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .f32 = 32 ∨ (Rect.block (s := S10000x128) S10000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .f32 = 32 ∨ (Rect.block (s := S10000x128) S200x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S10000x128.size a
  hwx1_5 : ∀ i : grid1.Coords, EltTy.bits .f32 = 32 ∨ (Rect.block (s := S10000x128) S200x128.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_0) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0_1) S10000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S200x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S200x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .i1⟩
  | .hbm, ⟨9, _⟩ => ⟨S_, .f32⟩
  | .hbm, ⟨10, _⟩ => ⟨S10000x128, .f32⟩
  | .hbm, ⟨11, _⟩ => ⟨S10000x128, .i1⟩
  | .hbm, ⟨12, _⟩ => ⟨S_, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_cst_0 : Ref sig .tc := ⟨.hbm, 9, rfl⟩
abbrev main_call0_v2 : Ref sig .tc := ⟨.hbm, 10, rfl⟩
abbrev main_call0_v3 : Ref sig .tc := ⟨.hbm, 11, rfl⟩
abbrev main_call0_cst_1 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_v4 : Ref sig .tc := ⟨.hbm, 15, rfl⟩
abbrev main_call0_v5 : Ref sig .tc := ⟨.hbm, 16, rfl⟩
abbrev main_call0_cst_2 : Ref sig .tc := ⟨.hbm, 17, rfl⟩
abbrev main_call0_v6 : Ref sig .tc := ⟨.hbm, 18, rfl⟩
abbrev main_call0_v7 : Ref sig .tc := ⟨.hbm, 19, rfl⟩
abbrev main_v1 : Ref sig .tc := ⟨.hbm, 20, rfl⟩
abbrev main_v2 : Ref sig .tc := ⟨.hbm, 21, rfl⟩
abbrev main_call1_cst : Ref sig .tc := ⟨.hbm, 22, rfl⟩
abbrev main_call1_v0 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Scalars.lean ====
/-
  The two elementwise maps of the graph layer, on the extended reals, in the two spellings the programs use.

  With m = X·W_miu and s = X·W_sigma entry by entry, the layer forms

      b1 = elu(m) · exp(−relu(s)),        b2 = relu(s) · exp(−relu(s)) · exp(−relu(s)).

  One program writes elu(m) as  "m if m > 0 else exp(min(m, 0)) − 1"  and the attenuation as exp(0 − relu(s));
  the other writes elu(m) as  "m if m > 0 else 1 · (exp(0 if m > 0 else m) − 1)"  and the attenuation as
  exp((−1) · relu(s)).  On the extended reals the two spellings are the same function of (m, s), infinities
  included: where m > 0 both return m; elsewhere min(m, 0) = m = (0 if m > 0 else m); 1 · z = z; and
  (−1) · z = −z = 0 − z.  No finiteness is used.
-/
import Idealize.ShloMosaic.PureOps.Ideal
import Idealize.ShloMosaic.Lib.ValueIdx

noncomputable section

namespace Cert.Ggcl

open Idealize.ShloMosaic Idealize.ShloMosaic.ValueIdx

/-- The float words the two programs spell: 0.0, 1.0 and −1.0. -/
abbrev w0 : EReal := Ideal.ofBits .f32 0x00000000#32
abbrev w1 : EReal := Ideal.ofBits .f32 0x3F800000#32
abbrev wm1 : EReal := Ideal.ofBits .f32 0xBF800000#32

theorem w0_eq : w0 = 0 := by
  simp [w0, Ideal.ofBits, Ideal.ieee]

theorem w1_eq : w1 = 1 := by
  simp [w1, Ideal.ofBits, Ideal.ieee, -EReal.coe_mul]; norm_num

theorem wm1_eq : wm1 = -1 := by
  simp [wm1, Ideal.ofBits, Ideal.ieee, -EReal.coe_mul]; norm_num

/-- exp(−relu(s)), written exp(0 − max(s, 0)). -/
def att (s : EReal) : EReal := Ideal.exp (w0 - max s w0)

/-- elu(m) · exp(−relu(s)), elu written with min. -/
def b1 (m s : EReal) : EReal :=
  Scalar.select (Ideal.cmp .ogt m w0) m (Ideal.exp (min m w0) - w1) * att s

/-- relu(s) · exp(−relu(s)) · exp(−relu(s)). -/
def b2 (s : EReal) : EReal := (max s w0 * att s) * att s

/-- exp(−relu(s)), written exp((−1) · max(s, 0)). -/
def att' (s : EReal) : EReal := Ideal.exp (wm1 * max s w0)

/-- elu(m) · exp(−relu(s)), elu written with a guarded argument and expm1. -/
def b1' (m s : EReal) : EReal :=
  Scalar.select (Ideal.cmp .ogt m w0) m (w1 * (Ideal.exp (Scalar.select (Ideal.cmp .ogt m w0) w0 m) - 1)) * att' s

def b2' (s : EReal) : EReal := (max s w0 * att' s) * att' s

theorem att'_eq (s : EReal) : att' s = att s := by
  unfold att' att
  rw [wm1_eq, w0_eq, neg_one_mul, zero_sub]

theorem b2'_eq (s : EReal) : b2' s = b2 s := by
  unfold b2' b2
  rw [att'_eq]

theorem b1'_eq (m s : EReal) : b1' m s = b1 m s := by
  unfold b1' b1
  rw [att'_eq]
  by_cases h : w0 < m
  · have hc : Ideal.cmp .ogt m w0 = 1#1 := by simp [Ideal.cmp, h]
    rw [hc, select_one, select_one]
  · have hc : Ideal.cmp .ogt m w0 = 0#1 := by simp [Ideal.cmp, h]
    rw [hc, select_zero, select_zero, select_zero, min_eq_left (not_lt.mp h), w1_eq, one_mul]

end Cert.Ggcl

end
-- ==== Proof.Spec.lean ====
/-
  What the two result arrays hold, as functions of the five argument arrays, index by index.

  With X the features [10000, 128], Wm and Ws the two weight matrices [128, 128] and A1, A2 the two adjacency
  matrices [10000, 10000]:

      M (k, j) = Σ_l X (k, l) · Wm (l, j),          S (k, j) = Σ_l X (k, l) · Ws (l, j),
      B1 (k, j) = b1 (M (k, j)) (S (k, j)),           B2 (k, j) = b2 (S (k, j)),
      out1 (i, j) = Σ_k A1 (i, k) · B1 (k, j),        out2 (i, j) = Σ_k A2 (i, k) · B2 (k, j),

  every sum over the whole contraction axis in one piece (128 terms, then 10000 terms), b1 and b2 the scalar maps
  of the layer.
-/
import proofs.«175121_g3882650436606_cont_8to1_b_1420_10_alg».proof.Proof.Scalars

noncomputable section

namespace Cert.Ggcl

open Idealize.ShloMosaic Idealize.ShloMosaic.ValueIdx
open scoped BigOperators

abbrev Feat : Type := (⟨2, ![10000, 128]⟩ : Shape).Idx → EReal
abbrev Wgt : Type := (⟨2, ![128, 128]⟩ : Shape).Idx → EReal
abbrev Adj : Type := (⟨2, ![10000, 10000]⟩ : Shape).Idx → EReal

/-- Row k of X against column j of W. -/
def proj (X : Feat) (W : Wgt) (k : Fin 10000) (j : Fin 128) : EReal := ∑ l : Fin 128, X (ix2 k l) * W (ix2 l j)

def B1at (X : Feat) (Wm Ws : Wgt) (k : Fin 10000) (j : Fin 128) : EReal := b1 (proj X Wm k j) (proj X Ws k j)
def B2at (X : Feat) (Ws : Wgt) (k : Fin 10000) (j : Fin 128) : EReal := b2 (proj X Ws k j)

/-- The first transformed feature array. -/
def B1 (X : Feat) (Wm Ws : Wgt) : Feat := fun i => B1at X Wm Ws (i 0) (i 1)
/-- The second transformed feature array. -/
def B2 (X : Feat) (Ws : Wgt) : Feat := fun i => B2at X Ws (i 0) (i 1)

/-- Row i of A against column j of B. -/
def aggAt (A : Adj) (B : Feat) (i : Fin 10000) (j : Fin 128) : EReal := ∑ k : Fin 10000, A (ix2 i k) * B (ix2 k j)

/-- An adjacency matrix applied to a feature array. -/
def agg (A : Adj) (B : Feat) : Feat := fun i => aggAt A B (i 0) (i 1)

theorem B1_ix (X : Feat) (Wm Ws : Wgt) (k : Fin 10000) (j : Fin 128) : B1 X Wm Ws (ix2 k j) = B1at X Wm Ws k j := rfl
theorem B2_ix (X : Feat) (Ws : Wgt) (k : Fin 10000) (j : Fin 128) : B2 X Ws (ix2 k j) = B2at X Ws k j := rfl
theorem agg_ix (A : Adj) (B : Feat) (i : Fin 10000) (j : Fin 128) : agg A B (ix2 i j) = aggAt A B i j := rfl

end Cert.Ggcl

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KernelPay.lean ====
/-
  The two kernel bodies' stored values at an index, on the extended reals.

  First body, on a block x0 of 2000 rows of the features and the two weight matrices: the value stored to the
  first output at (p, q) is b1 of row p of x0 against column q of each weight matrix, the value stored to the second
  is b2 of row p of x0 against column q of the second weight matrix. Second body, on a block of 200 rows of an
  adjacency matrix and a whole transformed feature array: the value stored at (p, q) is row p of the block against
  column q of the array, a sum of 10000 products.
-/
import proofs.«175121_g3882650436606_cont_8to1_b_1420_10_alg».proof.Proof.Gen.KernelIdeal.Skeleton
import proofs.«175121_g3882650436606_cont_8to1_b_1420_10_alg».proof.Proof.Spec
import proofs.«175121_g3882650436606_cont_8to1_b_1420_10_alg».proof.Proof.LibMatmul2d
import Idealize.ShloMosaic.Lib.Pipeline.Value

noncomputable section

namespace Cert.Ggcl

open Idealize.ShloMosaic Idealize.ShloMosaic.ValueIdx Cert.KernelIdeal Cert.KernelIdeal.Gen
open scoped BigOperators

theorem mm0 (x0 : Vec Ideal S2000x128 .f32) (x1 : Vec Ideal S128x128 .f32) (p : Fin 2000) (q : Fin 128) :
    matmul (φ₁ := .f32) (φ₂ := .f32) dot_S2000x128_S128x128_S2000x128_1_0_0_1_n_n none x0 x1 (constant (F := Ideal) S2000x128 .f32 0x00000000#32) (ix2 p q)
      = ∑ l : Fin 128, x0 (ix2 p l) * x1 (ix2 l q) :=
  Cert.LibMatmul2d.matmul_plain_apply (M := 2000) (K := 128) (N := 128) x0 x1 p q

theorem mm1 (x0 : Vec Ideal S200x10000 .f32) (x1 : Vec Ideal S10000x128 .f32) (p : Fin 200) (q : Fin 128) :
    matmul (φ₁ := .f32) (φ₂ := .f32) dot_S200x10000_S10000x128_S200x128_1_0_0_1_n_n none x0 x1 (constant (F := Ideal) S200x128 .f32 0x00000000#32) (ix2 p q)
      = ∑ k : Fin 10000, x0 (ix2 p k) * x1 (ix2 k q) :=
  Cert.LibMatmul2d.matmul_plain_apply (M := 200) (K := 10000) (N := 128) x0 x1 p q

/-- The first body's first stored value at (p, q). -/
theorem pay3_apply (x0 : Vec Ideal S2000x128 .f32) (x1 x3 : Vec Ideal S128x128 .f32) (p : Fin 2000) (q : Fin 128) :
    k0_pay3 x0 x1 x3 (ix2 p q)
      = b1 (∑ l : Fin 128, x0 (ix2 p l) * x1 (ix2 l q)) (∑ l : Fin 128, x0 (ix2 p l) * x3 (ix2 l q)) := by
  rw [← mm0 x0 x1 p q, ← mm0 x0 x3 p q]
  rfl

/-- The first body's second stored value at (p, q). -/
theorem pay4_apply (x0 : Vec Ideal S2000x128 .f32) (x3 : Vec Ideal S128x128 .f32) (p : Fin 2000) (q : Fin 128) :
    k0_pay4 x0 x3 (ix2 p q) = b2 (∑ l : Fin 128, x0 (ix2 p l) * x3 (ix2 l q)) := by
  rw [← mm0 x0 x3 p q]
  rfl

/-- The second body's first stored value at (p, q). -/
theorem pay1_apply (x0 : Vec Ideal S200x10000 .f32) (x1 : Vec Ideal S10000x128 .f32) (p : Fin 200) (q : Fin 128) :
    k1_pay1 x0 x1 (ix2 p q) = ∑ k : Fin 10000, x0 (ix2 p k) * x1 (ix2 k q) := by
  rw [← mm1 x0 x1 p q]
  unfold k1_pay1
  rw [shapeCast_self]

/-- The second body's second stored value at (p, q). -/
theorem pay2_apply (x0 : Vec Ideal S200x10000 .f32) (x1 : Vec Ideal S10000x128 .f32) (p : Fin 200) (q : Fin 128) :
    k1_pay2 x0 x1 (ix2 p q) = ∑ k : Fin 10000, x0 (ix2 p k) * x1 (ix2 k q) := by
  rw [← mm1 x0 x1 p q]
  unfold k1_pay2
  rw [shapeCast_self]

end Cert.Ggcl

end
-- ==== Proof.Region0.lean ====
/-
  The first launch (five grid points, 2000 rows of the features each): its two output arrays.

  At grid point t the body sees rows 2000·t … 2000·t + 1999 of the features and both weight matrices whole, and
  writes back rows 2000·t … 2000·t + 1999 of each output. Entry (p, q) of what it writes is b1 (resp. b2) of row
  2000·t + p of the features against column q of the weight matrices, which is entry (2000·t + p, q) of B1 (resp.
  B2) of the arrays as the launch finds them. The five row blocks tile the 10000 rows, so after the launch the two
  output arrays hold B1 and B2.
-/
import proofs.«175121_g3882650436606_cont_8to1_b_1420_10_alg».proof.Proof.Gen.KernelIdeal.Frame
import proofs.«175121_g3882650436606_cont_8to1_b_1420_10_alg».proof.Proof.KernelPay
import Idealize.ShloMosaic.Lib.Pipeline.Value

noncomputable section

namespace Cert.Ggcl

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the five points: the features' block and both outputs' blocks are row block t,
    the weight matrices' block is the whole matrix. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One entry of a block of the first output, from the blocks the body read. -/
theorem b1_block (X : Feat) (Wm Ws : Wgt) (x0 : Vec Ideal S2000x128 .f32) (x1 x2 : Vec Ideal S128x128 .f32)
    (j : S2000x128.Idx) (i : S10000x128.Idx)
    (h0 : ∀ l : Fin 128, x0 (ix2 (j 0) l) = X (ix2 (i 0) l)) (h1 : x1 = Wm) (h2 : x2 = Ws) (hq : (j 1).val = (i 1).val) :
    k0_pay3 x0 x1 x2 j = B1 X Wm Ws i := by
  subst h1 h2
  obtain ⟨p, q, rfl⟩ : ∃ (p : Fin 2000) (q : Fin 128), j = ix2 p q := ⟨j 0, j 1, eq_ix2 j⟩
  obtain ⟨k, r, rfl⟩ : ∃ (k : Fin 10000) (r : Fin 128), i = ix2 k r := ⟨i 0, i 1, eq_ix2 i⟩
  obtain rfl : q = r := Fin.ext hq
  rw [pay3_apply, B1_ix]
  unfold B1at proj
  have h0' : ∀ l : Fin 128, x0 (ix2 p l) = X (ix2 k l) := h0
  simp only [h0']

/-- One entry of a block of the second output, from the blocks the body read. -/
theorem b2_block (X : Feat) (Ws : Wgt) (x0 : Vec Ideal S2000x128 .f32) (x2 : Vec Ideal S128x128 .f32)
    (j : S2000x128.Idx) (i : S10000x128.Idx)
    (h0 : ∀ l : Fin 128, x0 (ix2 (j 0) l) = X (ix2 (i 0) l)) (h2 : x2 = Ws) (hq : (j 1).val = (i 1).val) :
    k0_pay4 x0 x2 j = B2 X Ws i := by
  subst h2
  obtain ⟨p, q, rfl⟩ : ∃ (p : Fin 2000) (q : Fin 128), j = ix2 p q := ⟨j 0, j 1, eq_ix2 j⟩
  obtain ⟨k, r, rfl⟩ : ∃ (k : Fin 10000) (r : Fin 128), i = ix2 k r := ⟨i 0, i 1, eq_ix2 i⟩
  obtain rfl : q = r := Fin.ext hq
  rw [pay4_apply, B2_ix]
  unfold B2at proj
  have h0' : ∀ l : Fin 128, x0 (ix2 p l) = X (ix2 k l) := h0
  simp only [h0']

/-- A weight matrix's block at any point is the matrix. -/
theorem wblk1 (c : Dev nD) (t : Fin cfg0.N) : iblk0 V c 1 t = V c main_arg3 := by
  obtain ⟨-, -, e0, e1, -⟩ := idx0 t
  funext y
  show V c main_arg3 (((cfg0.win 1).blk t).view.emb y) = V c main_arg3 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem wblk2 (c : Dev nD) (t : Fin cfg0.N) : iblk0 V c 2 t = V c main_arg4 := by
  obtain ⟨-, -, -, -, e0, e1, -⟩ := idx0 t
  funext y
  show V c main_arg4 (((cfg0.win 2).blk t).view.emb y) = V c main_arg4 y
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Row p of the features' block at point t is row (block row of an output entry) of the features. -/
theorem xrow (c : Dev nD) (t : Fin cfg0.N)
    (j : S2000x128.Idx) (l : Fin 128) (i : S10000x128.Idx) (hi : (i 0).val = t.val * 2000 + (j 0).val) :
    iblk0 V c 0 t (ix2 (j 0) l) = V c main_arg0 (ix2 (i 0) l) := by
  obtain ⟨e0, e1, -⟩ := idx0 t
  show V c main_arg0 (((cfg0.win 0).blk t).view.emb (ix2 (j 0) l)) = V c main_arg0 (ix2 (i 0) l)
  refine congrArg _ ?_
  funext a; apply Fin.ext
  match a with
  | ⟨0, _⟩ => show win0_0.index t (0 : Fin 2) * 2000 + 1 * (j 0).val = (i 0).val; omega
  | ⟨1, _⟩ => show win0_0.index t (1 : Fin 2) * 128 + 1 * l.val = l.val; omega

/-- What point t writes back to the first output is block t of B1 of the arrays as the launch finds them. -/
theorem flushed0_3_eq (c : Dev nD) (t : Fin cfg0.N) :
    (dat0 V c).flushed 3 t
      = ((cfg0.win 3).blk t).view.read (Elt Ideal) (B1 (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2]
  obtain ⟨-, -, -, -, -, -, e0, e1, -⟩ := idx0 t
  funext j
  show k0_pay3 (iblk0 V c 0 t) (iblk0 V c 1 t) (iblk0 V c 2 t) j
    = B1 (V c main_arg0) (V c main_arg3) (V c main_arg4) (((cfg0.win 3).blk t).view.emb j)
  refine b1_block (V c main_arg0) (V c main_arg3) (V c main_arg4) (iblk0 V c 0 t) (iblk0 V c 1 t) (iblk0 V c 2 t) j
    (((cfg0.win 3).blk t).view.emb j) (fun l => ?_) (wblk1 V c t) (wblk2 V c t) ?_
  · refine xrow V c t j l _ ?_
    show win0_3.index t (0 : Fin 2) * 2000 + 1 * (j 0).val = t.val * 2000 + (j 0).val
    omega
  · show (j 1).val = win0_3.index t (1 : Fin 2) * 128 + 1 * (j 1).val
    omega

/-- What point t writes back to the second output is block t of B2 of the arrays as the launch finds them. -/
theorem flushed0_4_eq (c : Dev nD) (t : Fin cfg0.N) :
    (dat0 V c).flushed 4 t
      = ((cfg0.win 4).blk t).view.read (Elt Ideal) (B2 (V c main_arg0) (V c main_arg4)) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x128) hz2]
  obtain ⟨-, -, -, -, -, -, -, -, e0, e1⟩ := idx0 t
  funext j
  show k0_pay4 (iblk0 V c 0 t) (iblk0 V c 2 t) j
    = B2 (V c main_arg0) (V c main_arg4) (((cfg0.win 4).blk t).view.emb j)
  refine b2_block (V c main_arg0) (V c main_arg4) (iblk0 V c 0 t) (iblk0 V c 2 t) j
    (((cfg0.win 4).blk t).view.emb j) (fun l => ?_) (wblk2 V c t) ?_
  · refine xrow V c t j l _ ?_
    show win0_4.index t (0 : Fin 2) * 2000 + 1 * (j 0).val = t.val * 2000 + (j 0).val
    omega
  · show (j 1).val = win0_4.index t (1 : Fin 2) * 128 + 1 * (j 1).val
    omega

/-- An index of an output array is in point t's block iff each coordinate is in the block's range on its axis. -/
theorem mem_blk0_3 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_call0_v0_0).slice (win0_3.rect t)).set ↔ _
  rw [View.set_slice_whole, Rect.mem_set_unit]
  exact Iff.rfl

theorem mem_blk0_4 (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_call0_v0_1).slice (win0_4.rect t)).set ↔ _
  rw [View.set_slice_whole, Rect.mem_set_unit]
  exact Iff.rfl

/-- Row r of an output lies in the block of point r / 2000. -/
theorem cover0_3' (i : S10000x128.Idx) : ∃ t : Fin cfg0.N, (cfg0.win 3).flush t = true ∧ i ∈ ((cfg0.win 3).blk t).view.set := by
  have hN : cfg0.N = 5 := N_0
  have hi0 : (i 0).val < 10000 := (i 0).isLt
  have hi1 : (i 1).val < 128 := (i 1).isLt
  refine ⟨⟨(i 0).val / 2000, by omega⟩, flush0_3 _, ?_⟩
  rw [mem_blk0_3]
  obtain ⟨-, -, -, -, -, -, e0, e1, -⟩ := idx0 ⟨(i 0).val / 2000, by omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e1]; omega

theorem cover0_4' (i : S10000x128.Idx) : ∃ t : Fin cfg0.N, (cfg0.win 4).flush t = true ∧ i ∈ ((cfg0.win 4).blk t).view.set := by
  have hN : cfg0.N = 5 := N_0
  have hi0 : (i 0).val < 10000 := (i 0).isLt
  have hi1 : (i 1).val < 128 := (i 1).isLt
  refine ⟨⟨(i 0).val / 2000, by omega⟩, flush0_4 _, ?_⟩
  rw [mem_blk0_4]
  obtain ⟨-, -, -, -, -, -, -, -, e0, e1⟩ := idx0 ⟨(i 0).val / 2000, by omega⟩
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 128 ≤ (i 1).val ∧ (i 1).val < win0_4.index _ (1 : Fin 2) * 128 + 128
    rw [e1]; omega

/-- After the first launch its first output array holds B1 of the arrays as the launch finds them. -/
theorem final0_3 (c : Dev nD) :
    (dat0 V c).arrAt 3 cfg0.N = B1 (V c main_arg0) (V c main_arg3) (V c main_arg4) :=
  (dat0 V c).arrAt_eq_of_cover 3 (B1 (V c main_arg0) (V c main_arg3) (V c main_arg4)) (fun t _ => flushed0_3_eq V c t) cover0_3'

/-- After the first launch its second output array holds B2 of the arrays as the launch finds them. -/
theorem final0_4 (c : Dev nD) :
    (dat0 V c).arrAt 4 cfg0.N = B2 (V c main_arg0) (V c main_arg4) :=
  (dat0 V c).arrAt_eq_of_cover 4 (B2 (V c main_arg0) (V c main_arg4)) (fun t _ => flushed0_4_eq V c t) cover0_4'

end Cert.Ggcl

end
-- ==== Proof.Region1.lean ====
/-
  The second launch (fifty grid points, 200 rows of each adjacency matrix each): its two output arrays.

  At grid point t the body sees rows 200·t … 200·t + 199 of each adjacency matrix and both transformed feature arrays
  whole, and writes back rows 200·t … 200·t + 199 of each output: entry (p, q) is row 200·t + p of the adjacency
  matrix against column q of the transformed features, one sum of 10000 products. The fifty row blocks tile the 10000
  rows, so after the launch the two outputs hold the two aggregations of the arrays as the launch finds them.
-/
import proofs.«175121_g3882650436606_cont_8to1_b_1420_10_alg».proof.Proof.Gen.KernelIdeal.Frame
import proofs.«175121_g3882650436606_cont_8to1_b_1420_10_alg».proof.Proof.KernelPay
import Idealize.ShloMosaic.Lib.Pipeline.Value

noncomputable section

namespace Cert.Ggcl

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2' : (![0, 0] : Fin 2 → Nat) = fun _ => 0 := funext fun a => by fin_cases a <;> rfl

/-- The printed index maps over the fifty points: each adjacency block and each output block is row block t, each
    transformed feature array is read whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- One entry of a block of the first output, from the blocks the body read. -/
theorem agg_block1 (A : Adj) (B : Feat) (x0 : Vec Ideal S200x10000 .f32) (x2 : Vec Ideal S10000x128 .f32)
    (j : S200x128.Idx) (i : S10000x128.Idx)
    (h0 : ∀ k : Fin 10000, x0 (ix2 (j 0) k) = A (ix2 (i 0) k)) (h2 : x2 = B) (hq : (j 1).val = (i 1).val) :
    k1_pay1 x0 x2 j = agg A B i := by
  subst h2
  obtain ⟨p, q, rfl⟩ : ∃ (p : Fin 200) (q : Fin 128), j = ix2 p q := ⟨j 0, j 1, eq_ix2 j⟩
  obtain ⟨k, r, rfl⟩ : ∃ (k : Fin 10000) (r : Fin 128), i = ix2 k r := ⟨i 0, i 1, eq_ix2 i⟩
  obtain rfl : q = r := Fin.ext hq
  rw [pay1_apply, agg_ix]
  unfold aggAt
  have h0' : ∀ k' : Fin 10000, x0 (ix2 p k') = A (ix2 k k') := h0
  simp only [h0']

/-- One entry of a block of the second output, from the blocks the body read. -/
theorem agg_block2 (A : Adj) (B : Feat) (x0 : Vec Ideal S200x10000 .f32) (x2 : Vec Ideal S10000x128 .f32)
    (j : S200x128.Idx) (i : S10000x128.Idx)
    (h0 : ∀ k : Fin 10000, x0 (ix2 (j 0) k) = A (ix2 (i 0) k)) (h2 : x2 = B) (hq : (j 1).val = (i 1).val) :
    k1_pay2 x0 x2 j = agg A B i := by
  subst h2
  obtain ⟨p, q, rfl⟩ : ∃ (p : Fin 200) (q : Fin 128), j = ix2 p q := ⟨j 0, j 1, eq_ix2 j⟩
  obtain ⟨k, r, rfl⟩ : ∃ (k : Fin 10000) (r : Fin 128), i = ix2 k r := ⟨i 0, i 1, eq_ix2 i⟩
  obtain rfl : q = r := Fin.ext hq
  rw [pay2_apply, agg_ix]
  unfold aggAt
  have h0' : ∀ k' : Fin 10000, x0 (ix2 p k') = A (ix2 k k') := h0
  simp only [h0']

/-- A transformed feature array's block at any point is the array. -/
theorem fblk2 (c : Dev nD) (t : Fin cfg1.N) : iblk1 V c 2 t = V c main_call0_v0_0 := by
  obtain ⟨-, -, -, -, e0, e1, -⟩ := idx1 t
  funext y
  show V c main_call0_v0_0 (((cfg1.win 2).blk t).view.emb y) = V c main_call0_v0_0 y
  refine congrArg _ ?_
  funext a; apply Fin.ext
  match a with
  | ⟨0, _⟩ => show win1_2.index t (0 : Fin 2) * 10000 + 1 * (y 0).val = (y 0).val; omega
  | ⟨1, _⟩ => show win1_2.index t (1 : Fin 2) * 128 + 1 * (y 1).val = (y 1).val; omega

theorem fblk3 (c : Dev nD) (t : Fin cfg1.N) : iblk1 V c 3 t = V c main_call0_v0_1 := by
  obtain ⟨-, -, -, -, -, -, e0, e1, -⟩ := idx1 t
  funext y
  show V c main_call0_v0_1 (((cfg1.win 3).blk t).view.emb y) = V c main_call0_v0_1 y
  refine congrArg _ ?_
  funext a; apply Fin.ext
  match a with
  | ⟨0, _⟩ => show win1_3.index t (0 : Fin 2) * 10000 + 1 * (y 0).val = (y 0).val; omega
  | ⟨1, _⟩ => show win1_3.index t (1 : Fin 2) * 128 + 1 * (y 1).val = (y 1).val; omega

/-- Row p of the first adjacency block at point t is row 200·t + p of the first adjacency matrix. -/
theorem arow0 (c : Dev nD) (t : Fin cfg1.N)
    (j : S200x128.Idx) (k : Fin 10000) (i : S10000x128.Idx) (hi : (i 0).val = t.val * 200 + (j 0).val) :
    iblk1 V c 0 t (ix2 (j 0) k) = V c main_arg1 (ix2 (i 0) k) := by
  obtain ⟨e0, e1, -⟩ := idx1 t
  show V c main_arg1 (((cfg1.win 0).blk t).view.emb (ix2 (j 0) k)) = V c main_arg1 (ix2 (i 0) k)
  refine congrArg _ ?_
  funext a; apply Fin.ext
  match a with
  | ⟨0, _⟩ => show win1_0.index t (0 : Fin 2) * 200 + 1 * (j 0).val = (i 0).val; omega
  | ⟨1, _⟩ => show win1_0.index t (1 : Fin 2) * 10000 + 1 * k.val = k.val; omega

/-- Row p of the second adjacency block at point t is row 200·t + p of the second adjacency matrix. -/
theorem arow1 (c : Dev nD) (t : Fin cfg1.N)
    (j : S200x128.Idx) (k : Fin 10000) (i : S10000x128.Idx) (hi : (i 0).val = t.val * 200 + (j 0).val) :
    iblk1 V c 1 t (ix2 (j 0) k) = V c main_arg2 (ix2 (i 0) k) := by
  obtain ⟨-, -, e0, e1, -⟩ := idx1 t
  show V c main_arg2 (((cfg1.win 1).blk t).view.emb (ix2 (j 0) k)) = V c main_arg2 (ix2 (i 0) k)
  refine congrArg _ ?_
  funext a; apply Fin.ext
  match a with
  | ⟨0, _⟩ => show win1_1.index t (0 : Fin 2) * 200 + 1 * (j 0).val = (i 0).val; omega
  | ⟨1, _⟩ => show win1_1.index t (1 : Fin 2) * 10000 + 1 * k.val = k.val; omega

/-- What point t writes back to the first output is block t of the first aggregation. -/
theorem flushed1_4_eq (c : Dev nD) (t : Fin cfg1.N) :
    (dat1 V c).flushed 4 t
      = ((cfg1.win 4).blk t).view.read (Elt Ideal) (agg (V c main_arg1) (V c main_call0_v0_0)) := by
  show (cfg1.win 4).cut (grid1.coords t) ((dat1 V c).after 4 t) = _
  rw [after1_4]
  unfold out1_4
  rw [View.canon_unit_zero hz2']
  simp only [View.ld_unit_zero (S := S200x10000) hz2', View.ld_unit_zero (S := S10000x128) hz2']
  obtain ⟨-, -, -, -, -, -, -, -, e0, e1, -⟩ := idx1 t
  funext j
  show k1_pay1 (iblk1 V c 0 t) (iblk1 V c 2 t) j
    = agg (V c main_arg1) (V c main_call0_v0_0) (((cfg1.win 4).blk t).view.emb j)
  refine agg_block1 (V c main_arg1) (V c main_call0_v0_0) (iblk1 V c 0 t) (iblk1 V c 2 t) j
    (((cfg1.win 4).blk t).view.emb j) (fun k => ?_) (fblk2 V c t) ?_
  · refine arow0 V c t j k _ ?_
    show win1_4.index t (0 : Fin 2) * 200 + 1 * (j 0).val = t.val * 200 + (j 0).val
    omega
  · show (j 1).val = win1_4.index t (1 : Fin 2) * 128 + 1 * (j 1).val
    omega

/-- What point t writes back to the second output is block t of the second aggregation. -/
theorem flushed1_5_eq (c : Dev nD) (t : Fin cfg1.N) :
    (dat1 V c).flushed 5 t
      = ((cfg1.win 5).blk t).view.read (Elt Ideal) (agg (V c main_arg2) (V c main_call0_v0_1)) := by
  show (cfg1.win 5).cut (grid1.coords t) ((dat1 V c).after 5 t) = _
  rw [after1_5]
  unfold out1_5
  rw [View.canon_unit_zero hz2']
  simp only [View.ld_unit_zero (S := S200x10000) hz2', View.ld_unit_zero (S := S10000x128) hz2']
  obtain ⟨-, -, -, -, -, -, -, -, -, -, e0, e1⟩ := idx1 t
  funext j
  show k1_pay2 (iblk1 V c 1 t) (iblk1 V c 3 t) j
    = agg (V c main_arg2) (V c main_call0_v0_1) (((cfg1.win 5).blk t).view.emb j)
  refine agg_block2 (V c main_arg2) (V c main_call0_v0_1) (iblk1 V c 1 t) (iblk1 V c 3 t) j
    (((cfg1.win 5).blk t).view.emb j) (fun k => ?_) (fblk3 V c t) ?_
  · refine arow1 V c t j k _ ?_
    show win1_5.index t (0 : Fin 2) * 200 + 1 * (j 0).val = t.val * 200 + (j 0).val
    omega
  · show (j 1).val = win1_5.index t (1 : Fin 2) * 128 + 1 * (j 1).val
    omega

/-- An index of an output array is in point t's block iff each coordinate is in the block's range on its axis. -/
theorem mem_blk1_4 (t : Fin cfg1.N) (i : S10000x128.Idx) :
    i ∈ ((cfg1.win 4).blk t).view.set ↔ ∀ a : Fin 2, win1_4.index t a * S200x128.size a ≤ (i a).val ∧ (i a).val < win1_4.index t a * S200x128.size a + S200x128.size a := by
  show i ∈ ((View.whole main_v0_0).slice (win1_4.rect t)).set ↔ _
  rw [View.set_slice_whole, Rect.mem_set_unit]
  exact Iff.rfl

theorem mem_blk1_5 (t : Fin cfg1.N) (i : S10000x128.Idx) :
    i ∈ ((cfg1.win 5).blk t).view.set ↔ ∀ a : Fin 2, win1_5.index t a * S200x128.size a ≤ (i a).val ∧ (i a).val < win1_5.index t a * S200x128.size a + S200x128.size a := by
  show i ∈ ((View.whole main_v0_1).slice (win1_5.rect t)).set ↔ _
  rw [View.set_slice_whole, Rect.mem_set_unit]
  exact Iff.rfl

/-- Row r of an output lies in the block of point r / 200. -/
theorem cover1_4' (i : S10000x128.Idx) : ∃ t : Fin cfg1.N, (cfg1.win 4).flush t = true ∧ i ∈ ((cfg1.win 4).blk t).view.set := by
  have hN : cfg1.N = 50 := N_1
  have hi0 : (i 0).val < 10000 := (i 0).isLt
  have hi1 : (i 1).val < 128 := (i 1).isLt
  refine ⟨⟨(i 0).val / 200, by omega⟩, flush1_4 _, ?_⟩
  rw [mem_blk1_4]
  obtain ⟨-, -, -, -, -, -, -, -, e0, e1, -⟩ := idx1 ⟨(i 0).val / 200, by omega⟩
  intro a
  match a with
  | ⟨0, _⟩ =>
    show win1_4.index _ (0 : Fin 2) * 200 ≤ (i 0).val ∧ (i 0).val < win1_4.index _ (0 : Fin 2) * 200 + 200
    rw [e0]; show (i 0).val / 200 * 200 ≤ (i 0).val ∧ (i 0).val < (i 0).val / 200 * 200 + 200; omega
  | ⟨1, _⟩ =>
    show win1_4.index _ (1 : Fin 2) * 128 ≤ (i 1).val ∧ (i 1).val < win1_4.index _ (1 : Fin 2) * 128 + 128
    rw [e1]; omega

theorem cover1_5' (i : S10000x128.Idx) : ∃ t : Fin cfg1.N, (cfg1.win 5).flush t = true ∧ i ∈ ((cfg1.win 5).blk t).view.set := by
  have hN : cfg1.N = 50 := N_1
  have hi0 : (i 0).val < 10000 := (i 0).isLt
  have hi1 : (i 1).val < 128 := (i 1).isLt
  refine ⟨⟨(i 0).val / 200, by omega⟩, flush1_5 _, ?_⟩
  rw [mem_blk1_5]
  obtain ⟨-, -, -, -, -, -, -, -, -, -, e0, e1⟩ := idx1 ⟨(i 0).val / 200, by omega⟩
  intro a
  match a with
  | ⟨0, _⟩ =>
    show win1_5.index _ (0 : Fin 2) * 200 ≤ (i 0).val ∧ (i 0).val < win1_5.index _ (0 : Fin 2) * 200 + 200
    rw [e0]; show (i 0).val / 200 * 200 ≤ (i 0).val ∧ (i 0).val < (i 0).val / 200 * 200 + 200; omega
  | ⟨1, _⟩ =>
    show win1_5.index _ (1 : Fin 2) * 128 ≤ (i 1).val ∧ (i 1).val < win1_5.index _ (1 : Fin 2) * 128 + 128
    rw [e1]; omega

/-- After the second launch its first output holds the first adjacency matrix applied to the first transformed array. -/
theorem final1_4 (c : Dev nD) :
    (dat1 V c).arrAt 4 cfg1.N = agg (V c main_arg1) (V c main_call0_v0_0) :=
  (dat1 V c).arrAt_eq_of_cover 4 (agg (V c main_arg1) (V c main_call0_v0_0)) (fun t _ => flushed1_4_eq V c t) cover1_4'

/-- After the second launch its second output holds the second adjacency matrix applied to the second transformed array. -/
theorem final1_5 (c : Dev nD) :
    (dat1 V c).arrAt 5 cfg1.N = agg (V c main_arg2) (V c main_call0_v0_1) :=
  (dat1 V c).arrAt_eq_of_cover 5 (agg (V c main_arg2) (V c main_call0_v0_1)) (fun t _ => flushed1_5_eq V c t) cover1_5'

end Cert.Ggcl

end
-- ==== Proof.KernelRun.lean ====
/-
  The kernel program's run with its result arrays read.

  The program is the two launches one after the other. The first leaves B1 and B2 of the argument arrays in its two
  output arrays and touches nothing else; the second reads the two adjacency matrices, which the first did not touch,
  and those two arrays, and leaves the two aggregations in the program's results. So every weakly fair execution
  terminates with

      result 1 = A1 applied to B1 (X, Wm, Ws),        result 2 = A2 applied to B2 (X, Ws),

  and the five argument arrays as launched.
-/
import proofs.«175121_g3882650436606_cont_8to1_b_1420_10_alg».proof.Proof.Gen.KernelIdeal.Frame
import proofs.«175121_g3882650436606_cont_8to1_b_1420_10_alg».proof.Proof.Region0
import proofs.«175121_g3882650436606_cont_8to1_b_1420_10_alg».proof.Proof.Region1

set_option maxRecDepth 16384

noncomputable section

namespace Cert.Ggcl

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of each core at
    the contents the two launches leave (the fold `W2`): the two launches as segments, the last thread state read
    against the final state. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

end Cert.Ggcl

end
-- ==== Proof.KernelValue.lean ====
/-
  The kernel program's two results as functions of its five argument arrays.

  After both launches the first result array is what the second launch's first output window leaves: the first
  adjacency matrix, as the second launch finds it, applied to the first launch's first output, as the second launch
  finds it. The first launch does not write the adjacency matrices, so the second finds them as launched; and what
  it finds in the first launch's output is B1 of the features and weights as launched. The same for the second result
  with the second adjacency matrix and B2.
-/
import proofs.«175121_g3882650436606_cont_8to1_b_1420_10_alg».proof.Proof.KernelRun

set_option maxRecDepth 16384

noncomputable section

namespace Cert.Ggcl

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first result array after both launches. -/
theorem res1 (c : Dev nD) :
    W2 m ρ c (Proc.devRef .tc main_v0_0)
      = agg (m ((c : Thread nD τ).loc main_arg1))
          (B1 (m ((c : Thread nD τ).loc main_arg0)) (m ((c : Thread nD τ).loc main_arg3)) (m ((c : Thread nD τ).loc main_arg4))) := by
  have hA : V1 m ρ c main_arg1 = m ((c : Thread nD τ).loc main_arg1) := W1_of_ne m ρ c main_arg1 (by decide)
  have hB : V1 m ρ c main_call0_v0_0
      = B1 (m ((c : Thread nD τ).loc main_arg0)) (m ((c : Thread nD τ).loc main_arg3)) (m ((c : Thread nD τ).loc main_arg4)) :=
    (W1_arr m ρ c 3).trans (final0_3 (V0 m ρ) c)
  calc W2 m ρ c (Proc.devRef .tc main_v0_0)
    _ = (dat1 (V1 m ρ) c).arrAt 4 cfg1.N := W2_arr m ρ c 4
    _ = agg (V1 m ρ c main_arg1) (V1 m ρ c main_call0_v0_0) := final1_4 (V1 m ρ) c
    _ = _ := by rw [hA, hB]

/-- The second result array after both launches. -/
theorem res2 (c : Dev nD) :
    W2 m ρ c (Proc.devRef .tc main_v0_1)
      = agg (m ((c : Thread nD τ).loc main_arg2))
          (B2 (m ((c : Thread nD τ).loc main_arg0)) (m ((c : Thread nD τ).loc main_arg4))) := by
  have hA : V1 m ρ c main_arg2 = m ((c : Thread nD τ).loc main_arg2) := W1_of_ne m ρ c main_arg2 (by decide)
  have hB : V1 m ρ c main_call0_v0_1
      = B2 (m ((c : Thread nD τ).loc main_arg0)) (m ((c : Thread nD τ).loc main_arg4)) :=
    (W1_arr m ρ c 4).trans (final0_4 (V0 m ρ) c)
  calc W2 m ρ c (Proc.devRef .tc main_v0_1)
    _ = (dat1 (V1 m ρ) c).arrAt 5 cfg1.N := W2_arr m ρ c 5
    _ = agg (V1 m ρ c main_arg2) (V1 m ρ c main_call0_v0_1) := final1_5 (V1 m ρ) c
    _ = _ := by rw [hA, hB]

/-- Every weakly fair execution terminates with both results at their functions of the arguments and the arguments
    as launched. -/
theorem run : θ_run defs (onTc (τ := τ) (main (F := Ideal))) ⟨m, fun _ => 0, ρ⟩ fun r => ∀ c : Dev nD,
      r.2.mem ((c.tc : Thread nD τ).loc main_v0_0)
          = agg (m ((c.tc : Thread nD τ).loc main_arg1))
              (B1 (m ((c.tc : Thread nD τ).loc main_arg0)) (m ((c.tc : Thread nD τ).loc main_arg3)) (m ((c.tc : Thread nD τ).loc main_arg4)))
      ∧ r.2.mem ((c.tc : Thread nD τ).loc main_v0_1)
          = agg (m ((c.tc : Thread nD τ).loc main_arg2))
              (B2 (m ((c.tc : Thread nD τ).loc main_arg0)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨(h c _ (mem_uc main_v0_0 (by decide))).trans (res1 m ρ c),
       (h c _ (mem_uc main_v0_1 (by decide))).trans (res2 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)
    (run_bufs m ρ)

end Cert.Ggcl

end
-- ==== Proof.RefRun.lean ====
/-
  The reference program's run, read back.

  Its @main is a straight line of 29 host operations once the three outlined functions (elu, its two selects, relu)
  are read at their call sites: the two feature products, elu of the first (two comparisons with zero, the guarded
  argument, exp − 1, the product with one, the select), relu of the second, the attenuation exp((−1) · relu), the two
  elementwise products and the two aggregations. Every weakly fair execution terminates with each buffer at the fold of
  those operations over the launch contents; the two results are then the composed terms `out1` and `out2` of the
  argument arrays.
-/
import proofs.«175121_g3882650436606_cont_8to1_b_1420_10_alg».proof.Proof.Gen.ReferenceIdeal
import Idealize.ShloMosaic.Lib.StableHlo.Run

noncomputable section

namespace Cert.Ggcl.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each outlined function's at its call. -/
abbrev ops : List (HloOp τ sig (Elt F)) :=
  [ binary main_arg0 main_arg3 main_v0 (fun l r => Host.dotGeneral dot_S10000x128_S128x128_S10000x128_1_0_0_1_n_n none l r),
    TRef.nullary main_call0.cst (constant S_ .f32 0x00000000#32),
    TRef.unary main_call0.cst main_call0.v0 (broadcastInDim S10000x128 ![] bcast_S_S10000x128),
    TRef.binary (.of main_v0) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v0) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v0) main_call0.v7 main_call0.call1.v0 select,
    binary main_arg0 main_arg4 main_v2 (fun l r => Host.dotGeneral dot_S10000x128_S128x128_S10000x128_1_0_0_1_n_n none l r),
    TRef.nullary main_call1.cst (constant S_ .f32 0x00000000#32),
    TRef.unary main_call1.cst main_call1.v0 (broadcastInDim S10000x128 ![] bcast_S_S10000x128),
    TRef.binary (.of main_v2) main_call1.v0 main_call1.v1 maximumf,
    nullary main_cst (constant S_ .f32 0xBF800000#32),
    unary main_cst main_v4 (broadcastInDim S10000x128 ![] bcast_S_S10000x128),
    binary main_v4 main_v3 main_v5 mulf,
    unary main_v5 main_v6 Host.exp,
    binary main_v1 main_v6 main_v7 mulf,
    binary main_arg1 main_v7 main_v8 (fun l r => Host.dotGeneral dot_S10000x10000_S10000x128_S10000x128_1_0_0_1_n_n none l r),
    binary main_v3 main_v6 main_v9 mulf,
    binary main_v9 main_v6 main_v10 mulf,
    binary main_arg2 main_v10 main_v11 (fun l r => Host.dotGeneral dot_S10000x10000_S10000x128_S10000x128_1_0_0_1_n_n none l r) ]

set_option maxRecDepth 4096 in
/-- @main is that straight line: the functions unfolded at their calls, sequencing reassociated. -/
theorem main_eq (c : Dev nD) : main (F := F) c = seq ops := by
  simp only [main, fn_elu.body, fn_where.body, fn_where_0.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., unary_bufs_sub ..,
    binary_bufs_sub .., binary_bufs_sub .., binary_bufs_sub .., binary_bufs_sub .., binary_bufs_sub ..⟩

/-- Every weakly fair execution of @main terminates with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed terms -/

/-- A constant word over the feature shape. -/
def splat (b : BitVec 32) : FVec F S10000x128 .f32 :=
  broadcastInDim S10000x128 ![] bcast_S_S10000x128 (constant S_ .f32 b)

/-- relu of the second feature product. -/
def sig3 (X : FVec F S10000x128 .f32) (Ws : FVec F S128x128 .f32) : FVec F S10000x128 .f32 :=
  maximumf (Host.dotGeneral dot_S10000x128_S128x128_S10000x128_1_0_0_1_n_n none X Ws) (splat 0x00000000#32)

/-- The attenuation exp((−1) · relu). -/
def att6 (X : FVec F S10000x128 .f32) (Ws : FVec F S128x128 .f32) : FVec F S10000x128 .f32 :=
  Host.exp (mulf (splat 0xBF800000#32) (sig3 X Ws))

/-- elu of the first feature product. -/
def elu1 (X : FVec F S10000x128 .f32) (Wm : FVec F S128x128 .f32) : FVec F S10000x128 .f32 :=
  select (cmpf .ogt (Host.dotGeneral dot_S10000x128_S128x128_S10000x128_1_0_0_1_n_n none X Wm) (splat 0x00000000#32))
    (Host.dotGeneral dot_S10000x128_S128x128_S10000x128_1_0_0_1_n_n none X Wm)
    (mulf (splat 0x3F800000#32) (Host.expm1 (select (cmpf .ogt (Host.dotGeneral dot_S10000x128_S128x128_S10000x128_1_0_0_1_n_n none X Wm) (splat 0x00000000#32))
      (splat 0x00000000#32) (Host.dotGeneral dot_S10000x128_S128x128_S10000x128_1_0_0_1_n_n none X Wm))))

def feat7 (X : FVec F S10000x128 .f32) (Wm Ws : FVec F S128x128 .f32) : FVec F S10000x128 .f32 :=
  mulf (elu1 X Wm) (att6 X Ws)

def feat10 (X : FVec F S10000x128 .f32) (Ws : FVec F S128x128 .f32) : FVec F S10000x128 .f32 :=
  mulf (mulf (sig3 X Ws) (att6 X Ws)) (att6 X Ws)

def out1 (X : FVec F S10000x128 .f32) (A1 : FVec F S10000x10000 .f32) (Wm Ws : FVec F S128x128 .f32) : FVec F S10000x128 .f32 :=
  Host.dotGeneral dot_S10000x10000_S10000x128_S10000x128_1_0_0_1_n_n none A1 (feat7 X Wm Ws)

def out2 (X : FVec F S10000x128 .f32) (A2 : FVec F S10000x10000 .f32) (Ws : FVec F S128x128 .f32) : FVec F S10000x128 .f32 :=
  Host.dotGeneral dot_S10000x10000_S10000x128_S10000x128_1_0_0_1_n_n none A2 (feat10 X Ws)

theorem res8 (V : Valuation τ sig (Elt F)) :
    after ops V (main_v8 : DevRef τ sig)
      = out1 (V (main_arg0 : DevRef τ sig)) (V (main_arg1 : DevRef τ sig)) (V (main_arg3 : DevRef τ sig)) (V (main_arg4 : DevRef τ sig)) := by
  after_results
  rfl

theorem res11 (V : Valuation τ sig (Elt F)) :
    after ops V (main_v11 : DevRef τ sig)
      = out2 (V (main_arg0 : DevRef τ sig)) (V (main_arg2 : DevRef τ sig)) (V (main_arg4 : DevRef τ sig)) := by
  after_results
  rfl

theorem kept0 (V : Valuation τ sig (Elt F)) : after ops V (main_arg0 : DevRef τ sig) = V (main_arg0 : DevRef τ sig) := by after_results
theorem kept1 (V : Valuation τ sig (Elt F)) : after ops V (main_arg1 : DevRef τ sig) = V (main_arg1 : DevRef τ sig) := by after_results
theorem kept2 (V : Valuation τ sig (Elt F)) : after ops V (main_arg2 : DevRef τ sig) = V (main_arg2 : DevRef τ sig) := by after_results
theorem kept3 (V : Valuation τ sig (Elt F)) : after ops V (main_arg3 : DevRef τ sig) = V (main_arg3 : DevRef τ sig) := by after_results
theorem kept4 (V : Valuation τ sig (Elt F)) : after ops V (main_arg4 : DevRef τ sig) = V (main_arg4 : DevRef τ sig) := by after_results

/-- The run: both results at their composed terms of the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = out1 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v11) = out2 (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v8).trans (res8 _), (h c main_v11).trans (res11 _),
      (h c main_arg0).trans (kept0 _), (h c main_arg1).trans (kept1 _), (h c main_arg2).trans (kept2 _),
      (h c main_arg3).trans (kept3 _), (h c main_arg4).trans (kept4 _)⟩)
    (run_fold m ρ)

end Cert.Ggcl.Ref

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«175121_g3882650436606_cont_8to1_b_1420_10_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.RefValue.lean ====
/-
  The reference's two composed terms, read at an index, are the specification's functions.

  Entry (k, j) of each feature product is row k of the features against column j of the weight matrix, a sum of 128
  products. The elementwise operations that follow act entry by entry, so entry (k, j) of the first transformed array
  is the layer's first scalar map, in the reference's spelling, of the two products' entries, and of the second the
  second scalar map; the two spellings of those scalar maps agree on every extended real. Entry (i, j) of each
  aggregation is row i of the adjacency matrix against column j of the transformed array, a sum of 10000 products.
-/
import proofs.«175121_g3882650436606_cont_8to1_b_1420_10_alg».proof.Proof.RefRun
import proofs.«175121_g3882650436606_cont_8to1_b_1420_10_alg».proof.Proof.Spec
import proofs.«175121_g3882650436606_cont_8to1_b_1420_10_alg».proof.Proof.LibHostStack

noncomputable section

namespace Cert.Ggcl.Ref

open Idealize.ShloMosaic Idealize.ShloMosaic.ValueIdx Cert.ReferenceIdeal Cert.Ggcl
open scoped BigOperators

/-- A feature product at (k, j). -/
theorem dot_feat (X : FVec Ideal S10000x128 .f32) (W : FVec Ideal S128x128 .f32) (k : Fin 10000) (j : Fin 128) :
    Host.dotGeneral (φ₁ := .f32) (φ₂ := .f32) dot_S10000x128_S128x128_S10000x128_1_0_0_1_n_n none X W (ix2 k j) = proj X W k j :=
  Cert.LibHostStack.dotGeneral_plain_apply (M := 10000) (K := 128) (N := 128) X W k j

/-- An aggregation at (i, j). -/
theorem dot_agg (A : FVec Ideal S10000x10000 .f32) (B : FVec Ideal S10000x128 .f32) (i : Fin 10000) (j : Fin 128) :
    Host.dotGeneral (φ₁ := .f32) (φ₂ := .f32) dot_S10000x10000_S10000x128_S10000x128_1_0_0_1_n_n none A B (ix2 i j) = aggAt A B i j :=
  Cert.LibHostStack.dotGeneral_plain_apply (M := 10000) (K := 10000) (N := 128) A B i j

/-- The first transformed array at (k, j), in the reference's spelling of the scalar map. -/
theorem feat7_apply (X : FVec Ideal S10000x128 .f32) (Wm Ws : FVec Ideal S128x128 .f32) (k : Fin 10000) (j : Fin 128) :
    feat7 (F := Ideal) X Wm Ws (ix2 k j) = b1' (proj X Wm k j) (proj X Ws k j) := by
  rw [← dot_feat X Wm k j, ← dot_feat X Ws k j]
  rfl

/-- The second transformed array at (k, j), in the reference's spelling of the scalar map. -/
theorem feat10_apply (X : FVec Ideal S10000x128 .f32) (Ws : FVec Ideal S128x128 .f32) (k : Fin 10000) (j : Fin 128) :
    feat10 (F := Ideal) X Ws (ix2 k j) = b2' (proj X Ws k j) := by
  rw [← dot_feat X Ws k j]
  rfl

theorem feat7_eq (X : FVec Ideal S10000x128 .f32) (Wm Ws : FVec Ideal S128x128 .f32) :
    feat7 (F := Ideal) X Wm Ws = B1 X Wm Ws := by
  funext i
  obtain ⟨k, j, rfl⟩ : ∃ (k : Fin 10000) (j : Fin 128), i = ix2 k j := ⟨i 0, i 1, eq_ix2 i⟩
  rw [feat7_apply, b1'_eq, B1_ix]
  rfl

theorem feat10_eq (X : FVec Ideal S10000x128 .f32) (Ws : FVec Ideal S128x128 .f32) :
    feat10 (F := Ideal) X Ws = B2 X Ws := by
  funext i
  obtain ⟨k, j, rfl⟩ : ∃ (k : Fin 10000) (j : Fin 128), i = ix2 k j := ⟨i 0, i 1, eq_ix2 i⟩
  rw [feat10_apply, b2'_eq, B2_ix]
  rfl

/-- The reference's first result is the first adjacency matrix applied to B1. -/
theorem out1_eq (X : FVec Ideal S10000x128 .f32) (A1 : FVec Ideal S10000x10000 .f32) (Wm Ws : FVec Ideal S128x128 .f32) :
    out1 (F := Ideal) X A1 Wm Ws = agg A1 (B1 X Wm Ws) := by
  funext i
  obtain ⟨r, j, rfl⟩ : ∃ (r : Fin 10000) (j : Fin 128), i = ix2 r j := ⟨i 0, i 1, eq_ix2 i⟩
  unfold out1
  rw [feat7_eq, dot_agg, agg_ix]

/-- The reference's second result is the second adjacency matrix applied to B2. -/
theorem out2_eq (X : FVec Ideal S10000x128 .f32) (A2 : FVec Ideal S10000x10000 .f32) (Ws : FVec Ideal S128x128 .f32) :
    out2 (F := Ideal) X A2 Ws = agg A2 (B2 X Ws) := by
  funext i
  obtain ⟨r, j, rfl⟩ : ∃ (r : Fin 10000) (j : Fin 128), i = ix2 r j := ⟨i 0, i 1, eq_ix2 i⟩
  unfold out2
  rw [feat10_eq, dot_agg, agg_ix]

end Cert.Ggcl.Ref

end
-- ==== Proof.lean ====
/- The graph layer

       out1 = A1 · (elu (X · Wm) ⊙ exp (−relu (X · Ws))),     out2 = A2 · (relu (X · Ws) ⊙ exp (−relu (X · Ws)) ⊙ exp (−relu (X · Ws)))

   computed by two launches (the elementwise transform of 2000-row blocks, then the two aggregations of 200-row blocks)
   against the same layer written with whole-array operations. On the extended reals both programs compute, entry by
   entry, the same sums in the same grouping (128 products per entry of X · W, 10000 per entry of A · B) of the same
   scalar maps of those sums; the two programs spell the scalar maps differently (elu through min or through a guarded
   argument and exp − 1 times one; the negation as 0 − z or (−1) · z), and the spellings agree at every extended real
   (Proof/Scalars.lean), so the precondition is not used.
   Proof/Spec.lean states the two results as functions of the arguments; Proof/KernelPay.lean, Region0.lean,
   Region1.lean, KernelRun.lean and KernelValue.lean read them off the kernel program's run; Proof/RefRun.lean and
   RefValue.lean off the reference's. The frames of the two kernel programs are the generated ones, the reference's is
   its run with the results dropped; no rewrite was applied by the idealization, so there is nothing to preserve. -/
import proofs.«175121_g3882650436606_cont_8to1_b_1420_10_alg».proof.Defs
import proofs.«175121_g3882650436606_cont_8to1_b_1420_10_alg».proof.Proof.Gen.Kernel
import proofs.«175121_g3882650436606_cont_8to1_b_1420_10_alg».proof.Proof.Gen.Kernel.Skeleton
import proofs.«175121_g3882650436606_cont_8to1_b_1420_10_alg».proof.Proof.Gen.Kernel.Launch
import proofs.«175121_g3882650436606_cont_8to1_b_1420_10_alg».proof.Proof.Gen.Kernel.Points
import proofs.«175121_g3882650436606_cont_8to1_b_1420_10_alg».proof.Proof.Gen.Kernel.Frame
import proofs.«175121_g3882650436606_cont_8to1_b_1420_10_alg».proof.Proof.Gen.KernelIdeal
import proofs.«175121_g3882650436606_cont_8to1_b_1420_10_alg».proof.Proof.Gen.KernelIdeal.Skeleton
import proofs.«175121_g3882650436606_cont_8to1_b_1420_10_alg».proof.Proof.Gen.KernelIdeal.Launch
import proofs.«175121_g3882650436606_cont_8to1_b_1420_10_alg».proof.Proof.Gen.KernelIdeal.Points
import proofs.«175121_g3882650436606_cont_8to1_b_1420_10_alg».proof.Proof.Gen.KernelIdeal.Frame
import proofs.«175121_g3882650436606_cont_8to1_b_1420_10_alg».proof.Proof.Gen.ReferenceIdeal
import proofs.«175121_g3882650436606_cont_8to1_b_1420_10_alg».proof.Proof.Gen.Pre_finite_inputs
import Idealize.ShloMosaic.Adequacy
import Idealize.ShloMosaic.Init
import proofs.«175121_g3882650436606_cont_8to1_b_1420_10_alg».proof.Proof.KernelValue
import proofs.«175121_g3882650436606_cont_8to1_b_1420_10_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.Ggcl.Ref.run (F := Ideal) m ρ)

/-- Both programs end with result 1 = A1 applied to B1 (X, Wm, Ws) and result 2 = A2 applied to B2 (X, Ws) of arguments
    that agree. -/
theorem algebraic : Cert.algebraic_KernelIdeal_ReferenceIdeal := by
  intro m ρ m' ρ' _ hagree
  refine ⟨_, _, Cert.Ggcl.run m ρ, ?_⟩
  refine (θ_run Cert.ReferenceIdeal.defs _ _).mono (fun _ h c => ?_) (Cert.Ggcl.Ref.run (F := Ideal) m' ρ')
  obtain ⟨h8, h11, k0, k1, k2, k3, k4⟩ := h c
  obtain ⟨a0, a1, a2, a3, a4⟩ := hagree c
  refine ⟨?_, ?_, k0, k1, k2, k3, k4⟩
  · rw [h8, Cert.Ggcl.Ref.out1_eq, a0, a1, a3, a4]
  · rw [h11, Cert.Ggcl.Ref.out2_eq, a0, a2, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
